-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S128x64 : Shape := ⟨2, ![128, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S128x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S128x64 : Shape := ⟨2, ![128, 64]⟩
abbrev S64 : Shape := ⟨1, ![64]⟩
abbrev S1x64 : Shape := ⟨2, ![1, 64]⟩
abbrev S1024x4096 : Shape := ⟨2, ![1024, 4096]⟩
abbrev S1024x64 : Shape := ⟨2, ![1024, 64]⟩
abbrev S1024x1 : Shape := ⟨2, ![1024, 1]⟩
abbrev S4096x64 : Shape := ⟨2, ![4096, 64]⟩
abbrev S1024 : Shape := ⟨1, ![1024]⟩
abbrev S64x64 : Shape := ⟨2, ![64, 64]⟩

abbrev nBuf : Space → Nat
  | .hbm => 6
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S1x64, .f32⟩
  | .hbm, ⟨5, _⟩ => ⟨S16384x64, .f32⟩
  | .local _ .vmem, ⟨0, _⟩ => ⟨S1024x4096, .f32⟩
  | .local _ .vmem, ⟨1, _⟩ => ⟨S1024x4096, .f32⟩
  | .local _ .vmem, ⟨2, _⟩ => ⟨S16384x64, .f32⟩
  | .local _ .vmem, ⟨3, _⟩ => ⟨S128x64, .f32⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c4096_i32 : BitVec 32 := 4096#32
  let v4 : BitVec 32 := Scalar.muli arg1 c4096_i32
  v4
def k0_off1 (i : grid0.Coords) : Fin 2 → Nat :=
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_12 : BitVec 32 := 0#32
  let v23 : BitVec 1 := Scalar.cmpi .ne v22 c0_i32_12
  v23

def k0_mult2 (i : grid0.Coords) : BitVec 32 :=
  let arg0 : BitVec 32 := BitVec.ofNat 32 (i 0).val
  let c1024_i32 : BitVec 32 := 1024#32
  let v29 : BitVec 32 := Scalar.muli arg0 c1024_i32
  v29
def k0_off2 (i : grid0.Coords) : Fin 2 → Nat :=
  let arg0 : BitVec 32 := BitVec.ofNat 32 (i 0).val
  let c1024_i32 : BitVec 32 := 1024#32
  let v29 : BitVec 32 := Scalar.muli arg0 c1024_i32
  let v30 : BitVec 32 := v29
  let v31 : Index := Scalar.indexCast v30
  let c0_17 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  h_S4096x64 : 0 < S4096x64.numel
  reduces_S1024x4096_S1024 : S1024x4096.Reduces [1] S1024
  shapeCasts_S1024_S1024x1 : S1024.ShapeCasts S1024x1
  broadcasts_S1024x1_S1024x64 : S1024x1.Broadcasts S1024x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  dot_S1024x4096_S4096x64_S1024x64_1_0_0_1_n_n_wf : DotDims.WF S1024x4096 S4096x64 S1024x64 [1] [0] [0] [1] [] []
  dot_S1024x64_S64x64_S1024x64_1_0_0_1_n_n_wf : DotDims.WF S1024x64 S64x64 S1024x64 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x64.size a ≤ S16384x64.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .f32 = 32 ∨ (Rect.block (s := S16384x16384) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .f32 = 32 ∨ (Rect.block (s := S16384x64) S1024x64.size (cc0_transform_4 i) (hinb0_4 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S128x64 : Shape := ⟨2, ![128, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x128, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x64, .f32⟩
  | .hbm, ⟨35, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_call2_v2 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  concatenates_S16384x64_S16384x64_S16384x128_d1 : Shape.Concatenates [S16384x64, S16384x64] S16384x128 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  dot_S16384x16384_S16384x64_S16384x64_1_0_0_1_n_n_wf : DotDims.WF S16384x16384 S16384x64 S16384x64 [1] [0] [0] [1] [] []
  dot_S16384x128_S128x64_S16384x64_1_0_0_1_n_n_wf : DotDims.WF S16384x128 S128x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Pieces.lean ====
import proofs.«154820_j78451872628893_2_alg».proof.Proof.Gen.KernelIdeal.Frame
import Idealize.ShloMosaic.Lib.Pipeline.Value
import Idealize.ShloMosaic.Lib.Tactic

set_option maxRecDepth 16384

noncomputable section

/-
  What each control case of the kernel body leaves behind, as values.

  The body runs in one of three cases, by the column-tile coordinate j of the grid point (i, j):
    first tile (j = 0):   both accumulators are zeroed, then the tile's contribution is added;
    middle tiles:         the tile's contribution is added to what the point before left;
    last tile (j = 3):    the contribution is added, and the finished row block is computed and stored.
  Each lemma reads the stores a case performs back as ONE stored value over the values the case loaded: the adjacency
  tile x0, the 4096 rows of the feature matrix under the tile's columns (`tileRows`), the block's own 1024 feature rows
  (`ownRows`), the weights x2, the bias row x3, and the two accumulators as the point before left them.
-/
namespace Cert.Sage.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The 4096 rows of the resident feature matrix that lie under the current column tile. -/
abbrev tileRows (i : grid0.Coords) (x1 : Vec F S16384x64 .f32) : Vec F S4096x64 .f32 :=
  View.ld x1 (Rect.unit (k0_off1 i) S4096x64.size (k0_off1_inb i))

/-- The 1024 rows of the resident feature matrix that belong to the current row block. -/
abbrev ownRows (i : grid0.Coords) (h : cond0_1 i) (x1 : Vec F S16384x64 .f32) : Vec F S1024x64 .f32 :=
  View.ld x1 (Rect.unit (k0_off2 i) S1024x64.size (k0_off2_inb i h))

/-- Middle tile, feature accumulator: what the point before left, plus the tile's product. -/
theorem mid_acc (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : ¬cond0_0 i) (hc1 : ¬cond0_1 i) (x0 : Vec F S1024x4096 .f32) (x1 : Vec F S16384x64 .f32) (x2 : Vec F S128x64 .f32) (x3 : Vec F S1x64 .f32) (xs0 : Vec F S1024x64 .f32) (xs1 : Vec F S1024x1 .f32) :
    sout0_B_0 c i arg2 harg2 arg3 harg3 arg4 harg4 arg5 harg5 arg6 harg6 arg7 harg7 arg8 harg8 hc0 hc1 x0 x1 x2 x3 xs0 xs1 = k0_pay3 x0 (tileRows i x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz]
  simp only [View.readAt_eq_ld, harg2.read_unread, harg3.read_unread, harg7.read_unread, View.ld_unit_zero (S := S1024x4096) hz, View.ld_unit_zero (S := S1024x64) hz]

/-- Middle tile, degree accumulator: what the point before left, plus the tile's row sums. -/
theorem mid_deg (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : ¬cond0_0 i) (hc1 : ¬cond0_1 i) (x0 : Vec F S1024x4096 .f32) (x1 : Vec F S16384x64 .f32) (x2 : Vec F S128x64 .f32) (x3 : Vec F S1x64 .f32) (xs0 : Vec F S1024x64 .f32) (xs1 : Vec F S1024x1 .f32) :
    sout0_B_1 c i arg2 harg2 arg3 harg3 arg4 harg4 arg5 harg5 arg6 harg6 arg7 harg7 arg8 harg8 hc0 hc1 x0 x1 x2 x3 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz]
  simp only [View.readAt_eq_ld, harg2.read_unread, harg8.read_unread, View.ld_unit_zero (S := S1024x4096) hz, View.ld_unit_zero (S := S1024x1) hz]

/-- Last tile, feature accumulator: as at a middle tile. -/
theorem last_acc (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : ¬cond0_0 i) (hc1 : cond0_1 i) (x0 : Vec F S1024x4096 .f32) (x1 : Vec F S16384x64 .f32) (x2 : Vec F S128x64 .f32) (x3 : Vec F S1x64 .f32) (xs0 : Vec F S1024x64 .f32) (xs1 : Vec F S1024x1 .f32) :
    sout0_C_0 c i arg2 harg2 arg3 harg3 arg4 harg4 arg5 harg5 arg6 harg6 arg7 harg7 arg8 harg8 hc0 hc1 x0 x1 x2 x3 xs0 xs1 = k0_pay3 x0 (tileRows i x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg7.read_unread, View.ld_unit_zero (S := S1024x4096) hz, View.ld_unit_zero (S := S1024x64) hz]
  rfl

/-- Last tile, degree accumulator: as at a middle tile. -/
theorem last_deg (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : ¬cond0_0 i) (hc1 : cond0_1 i) (x0 : Vec F S1024x4096 .f32) (x1 : Vec F S16384x64 .f32) (x2 : Vec F S128x64 .f32) (x3 : Vec F S1x64 .f32) (xs0 : Vec F S1024x64 .f32) (xs1 : Vec F S1024x1 .f32) :
    sout0_C_1 c i arg2 harg2 arg3 harg3 arg4 harg4 arg5 harg5 arg6 harg6 arg7 harg7 arg8 harg8 hc0 hc1 x0 x1 x2 x3 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg8.read_unread, View.ld_unit_zero (S := S1024x4096) hz, View.ld_unit_zero (S := S1024x1) hz]

/-- Last tile, the output block: the finishing computation over the two accumulators AS JUST UPDATED, the block's own
    feature rows, the weights and the bias row. -/
theorem last_out (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : ¬cond0_0 i) (hc1 : cond0_1 i) (x0 : Vec F S1024x4096 .f32) (x1 : Vec F S16384x64 .f32) (x2 : Vec F S128x64 .f32) (x3 : Vec F S1x64 .f32) (xs0 : Vec F S1024x64 .f32) (xs1 : Vec F S1024x1 .f32) :
    out0_C_4 c i arg2 harg2 arg3 harg3 arg4 harg4 arg5 harg5 arg6 harg6 arg7 harg7 arg8 harg8 hc0 hc1 x0 x1 x2 x3 xs0 xs1
      = k0_pay5 (k0_pay4 x0 xs1) (ownRows i hc1 x1) (k0_pay3 x0 (tileRows i x1) xs0) x2 x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words

  rw [View.canon_unit_zero hz]
  simp only [View.readAt_eq_ld, harg2.read_unread, harg3.read_unread, harg4.read_unread, harg5.read_unread, harg7.read_unread, harg8.read_unread, View.ld_unit_zero (S := S1024x4096) hz, View.ld_unit_zero (S := S1024x64) hz, View.ld_unit_zero (S := S1024x1) hz, View.ld_unit_zero (S := S128x64) hz, View.ld_unit_zero (S := S1x64) hz, View.readCov_unit_zero (S := S1024x1) _ hz, View.readCov_unit_zero (S := S1024x64) _ hz]
  rfl

/-- First tile, feature accumulator: the zero block, plus the tile's product. -/
theorem first_acc (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : cond0_0 i) (hc1 : ¬cond0_1 i) (x0 : Vec F S1024x4096 .f32) (x1 : Vec F S16384x64 .f32) (x2 : Vec F S128x64 .f32) (x3 : Vec F S1x64 .f32) :
    sout0_A_0 c i arg2 harg2 arg3 harg3 arg4 harg4 arg5 harg5 arg6 harg6 arg7 harg7 arg8 harg8 hc0 hc1 x0 x1 x2 x3 = k0_pay3 x0 (tileRows i x1) (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words

  rw [View.canon_cons_unit_zero (S := S1024x64) hz]
  simp only [View.readCov_unit_zero (S := S1024x64) _ hz, View.readAt_eq_ld, harg2.read_unread, harg3.read_unread, View.ld_unit_zero (S := S1024x4096) hz, View.ld_unit_zero (S := S1024x64) hz]
  rfl

/-- First tile, degree accumulator: the zero column, plus the tile's row sums. -/
theorem first_deg (c : Dev nD) (i : grid0.Coords) (arg2 : Memref sig .tc .vmem S1024x4096 .f32) (harg2 : arg2.IsWhole) (arg3 : Memref sig .tc .vmem S16384x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x1 .f32) (harg8 : arg8.IsWhole) (hc0 : cond0_0 i) (hc1 : ¬cond0_1 i) (x0 : Vec F S1024x4096 .f32) (x1 : Vec F S16384x64 .f32) (x2 : Vec F S128x64 .f32) (x3 : Vec F S1x64 .f32) :
    sout0_A_1 c i arg2 harg2 arg3 harg3 arg4 harg4 arg5 harg5 arg6 harg6 arg7 harg7 arg8 harg8 hc0 hc1 x0 x1 x2 x3 = k0_pay4 x0 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz]
  simp only [View.readCov_unit_zero (S := S1024x1) _ hz, View.readAt_eq_ld, harg2.read_unread, View.ld_unit_zero (S := S1024x4096) hz, View.ld_unit_zero (S := S1024x1) hz]

end Cert.Sage.Pieces

end
-- ==== Proof.Blocks.lean ====
/-
  Where a block's entry sits in its array.

  The grid has 16 row blocks by 4 column tiles, 64 points in row-major order: point t is row block t / 4, column tile
  t % 4. At point t the adjacency window holds rows 1024 (t / 4) + p, columns 4096 (t % 4) + k of the adjacency array;
  the feature matrix, the weights and the bias row are resident whole at every point; inside the body the feature rows
  under the column tile are rows 4096 (t % 4) + k of the feature matrix, and the row block's own feature rows are rows
  1024 (t / 4) + p.
-/
import proofs.«154820_j78451872628893_2_alg».proof.Proof.Gen.KernelIdeal.Frame
import proofs.«154820_j78451872628893_2_alg».proof.Proof.Pieces
import Idealize.ShloMosaic.Lib.Pipeline.Value
import Idealize.ShloMosaic.Lib.ValueIdx

noncomputable section

namespace Cert.Sage.Blocks

open Cert.KernelIdeal Cert.KernelIdeal.Gen Idealize.ShloMosaic Idealize.ShloMosaic.TcCoe Idealize.SL.Sem
open Idealize.ShloMosaic.ValueIdx Cert.Sage.Pieces

variable {F : FTy → Type} [FloatOps F]
variable (m : (ℓ : Loc nD τ sig) → Buf (Elt F) ℓ)

/-- The four arrays as the kernel region finds them. -/
abbrev adjArr (c : Dev nD) : Vec F S16384x16384 .f32 := V m c main_arg1
abbrev featArr (c : Dev nD) : Vec F S16384x64 .f32 := V m c main_arg0
abbrev wArr (c : Dev nD) : Vec F S128x64 .f32 := V m c main_arg2
abbrev biasRow (c : Dev nD) : Vec F S1x64 .f32 := V m c main_v0

/-- Point t's coordinates: row block t / 4, column tile t % 4. -/
theorem crd : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The adjacency window's block index at t is (t / 4, t % 4). -/
theorem idxAdj : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
/-- The resident windows' block index is (0, 0) at every point. -/
theorem idxFeat : ∀ t : Fin cfg0.N, win0_1.index t 0 = 0 ∧ win0_1.index t 1 = 0 :=
  (by decide +kernel : ∀ t : Fin grid0.N, win0_1.index t 0 = 0 ∧ win0_1.index t 1 = 0)
theorem idxW : ∀ t : Fin cfg0.N, win0_2.index t 0 = 0 ∧ win0_2.index t 1 = 0 :=
  (by decide +kernel : ∀ t : Fin grid0.N, win0_2.index t 0 = 0 ∧ win0_2.index t 1 = 0)
theorem idxBias : ∀ t : Fin cfg0.N, win0_3.index t 0 = 0 ∧ win0_3.index t 1 = 0 :=
  (by decide +kernel : ∀ t : Fin grid0.N, win0_3.index t 0 = 0 ∧ win0_3.index t 1 = 0)
/-- The output window's block index at t is (t / 4, 0). -/
theorem idxOut : ∀ t : Fin cfg0.N, win0_4.index t 0 = t.val / 4 ∧ win0_4.index t 1 = 0 :=
  (by decide +kernel : ∀ t : Fin grid0.N, win0_4.index t 0 = t.val / 4 ∧ win0_4.index t 1 = 0)

/-- The feature rows under column tile (i 1): row k of the loaded slice is row 4096 (i 1) + k of the matrix. -/
theorem tileRows_apply (i : grid0.Coords) (x1 : Vec F S16384x64 .f32) (k : Fin 4096) (d : Fin 64)
    (h : 4096 * (i 1).val + k.val < 16384) :
    tileRows i x1 (ix2 k d) = x1 (ix2 ⟨4096 * (i 1).val + k.val, h⟩ d) := by
  show x1 ((Rect.unit (s := S16384x64) (k0_off1 i) S4096x64.size (k0_off1_inb i)).emb (ix2 k d)) = _
  congr 1
  funext a
  apply Fin.ext
  match a with
  | ⟨0, _⟩ =>
    show k0_off1 i 0 + 1 * k.val = 4096 * (i 1).val + k.val
    rw [k0_off1_eq]; show 4096 * (i 1).val + 1 * k.val = _; omega
  | ⟨1, _⟩ =>
    show k0_off1 i 1 + 1 * d.val = d.val
    rw [k0_off1_eq]; show 0 + 1 * d.val = _; omega

/-- The row block's own feature rows: row p of the loaded slice is row 1024 (i 0) + p of the matrix. -/
theorem ownRows_apply (i : grid0.Coords) (hc : cond0_1 i) (x1 : Vec F S16384x64 .f32) (p : Fin 1024) (d : Fin 64)
    (h : 1024 * (i 0).val + p.val < 16384) :
    ownRows i hc x1 (ix2 p d) = x1 (ix2 ⟨1024 * (i 0).val + p.val, h⟩ d) := by
  show x1 ((Rect.unit (s := S16384x64) (k0_off2 i) S1024x64.size (k0_off2_inb i hc)).emb (ix2 p d)) = _
  congr 1
  funext a
  apply Fin.ext
  match a with
  | ⟨0, _⟩ =>
    show k0_off2 i 0 + 1 * p.val = 1024 * (i 0).val + p.val
    rw [k0_off2_eq]; show 1024 * (i 0).val + 1 * p.val = _; omega
  | ⟨1, _⟩ =>
    show k0_off2 i 1 + 1 * d.val = d.val
    rw [k0_off2_eq]; show 0 + 1 * d.val = _; omega

/-- The adjacency block at point t, entry (p, k): the array's entry (1024 (t / 4) + p, 4096 (t % 4) + k). -/
theorem adj_block (c : Dev nD) (t : Fin cfg0.N) (p : Fin 1024) (k : Fin 4096)
    (hr : 1024 * (t.val / 4) + p.val < 16384) (hk : 4096 * (t.val % 4) + k.val < 16384) :
    (iblk m c 0 t : Vec F S1024x4096 .f32) (ix2 p k)
      = adjArr m c (ix2 ⟨1024 * (t.val / 4) + p.val, hr⟩ ⟨4096 * (t.val % 4) + k.val, hk⟩) := by
  unfold iblk
  rw [View.read_apply]
  show V m c main_arg1 _ = V m c main_arg1 _
  congr 1
  funext a
  apply Fin.ext
  match a with
  | ⟨0, _⟩ =>
    show win0_0.index t 0 * 1024 + 1 * p.val = 1024 * (t.val / 4) + p.val
    rw [(idxAdj t).1]; omega
  | ⟨1, _⟩ =>
    show win0_0.index t 1 * 4096 + 1 * k.val = 4096 * (t.val % 4) + k.val
    rw [(idxAdj t).2]; omega

/-- The feature matrix is resident whole. -/
theorem feat_block (c : Dev nD) (t : Fin cfg0.N) : (iblk m c 1 t : Vec F S16384x64 .f32) = featArr m c := by
  funext j
  unfold iblk
  rw [View.read_apply]
  show V m c main_arg0 _ = V m c main_arg0 j
  congr 1
  funext a
  apply Fin.ext
  match a with
  | ⟨0, _⟩ => show win0_1.index t 0 * 16384 + 1 * (j 0).val = (j 0).val; rw [(idxFeat t).1]; omega
  | ⟨1, _⟩ => show win0_1.index t 1 * 64 + 1 * (j 1).val = (j 1).val; rw [(idxFeat t).2]; omega

/-- The weight matrix is resident whole. -/
theorem w_block (c : Dev nD) (t : Fin cfg0.N) : (iblk m c 2 t : Vec F S128x64 .f32) = wArr m c := by
  funext j
  unfold iblk
  rw [View.read_apply]
  show V m c main_arg2 _ = V m c main_arg2 j
  congr 1
  funext a
  apply Fin.ext
  match a with
  | ⟨0, _⟩ => show win0_2.index t 0 * 128 + 1 * (j 0).val = (j 0).val; rw [(idxW t).1]; omega
  | ⟨1, _⟩ => show win0_2.index t 1 * 64 + 1 * (j 1).val = (j 1).val; rw [(idxW t).2]; omega

/-- The bias row is resident whole. -/
theorem bias_block (c : Dev nD) (t : Fin cfg0.N) : (iblk m c 3 t : Vec F S1x64 .f32) = biasRow m c := by
  funext j
  unfold iblk
  rw [View.read_apply]
  show V m c main_v0 _ = V m c main_v0 j
  congr 1
  funext a
  apply Fin.ext
  match a with
  | ⟨0, _⟩ => show win0_3.index t 0 * 1 + 1 * (j 0).val = (j 0).val; rw [(idxBias t).1]; omega
  | ⟨1, _⟩ => show win0_3.index t 1 * 64 + 1 * (j 1).val = (j 1).val; rw [(idxBias t).2]; omega

end Cert.Sage.Blocks

end
-- ==== Proof.Spec.lean ====
/-
  The layer's result as one function of the four argument arrays, index by index, over the extended reals.

  A node r of a graph on 16384 nodes has a feature row x_r (64 numbers). With the adjacency row a_r:
    g_r      = sum over k of a_r(k)                              -- the row's degree sum
    s_r(c)   = sum over k of a_r(k) * x_k(c)                     -- the neighbours' features, summed
    h_r(c)   = (s_r(c) + x_r(c)) / max(1, g_r + 1)               -- the mean over the node and its neighbours
    z_r(o)   = (sum_c x_r(c) * W(c, o) + sum_c h_r(c) * W(64 + c, o)) + b(o)
    y_r(o)   = max(z_r(o), 0)
    out_r(o) = y_r(o) / max(sqrt(sum_q y_r(q)^2), tiny)
  Everything after g_r and s_r depends on the node's own row only: `rowOut` is that tail, and `G` feeds it the whole-array sums.
  The words 1.0, 0.0 (in the max) and 1e-12 are kept as the float patterns both programs spell: they are never evaluated.
-/
import Idealize.ShloMosaic.PureOps.Ideal
import Idealize.ShloMosaic.Lib.ValueIdx

noncomputable section

namespace Cert.Sage

open Idealize.ShloMosaic Idealize.ShloMosaic.ValueIdx

/-- The float pattern of 1.0. -/
abbrev one : EReal := Ideal.ofBits .f32 0x3F800000#32
/-- The float pattern of 0.0, as the rectifier's second operand. -/
abbrev nought : EReal := Ideal.ofBits .f32 0x00000000#32
/-- The float pattern nearest 1e-12: the floor under the norm. -/
abbrev tiny : EReal := Ideal.ofBits .f32 0x2B8CBCCC#32

/-- Row c of the upper half of the [128, 64] weight matrix: the part that multiplies a node's own features. -/
abbrev lo (c : Fin 64) : Fin 128 := ⟨c.val, by omega⟩
/-- Row 64 + c: the part that multiplies the aggregated features. -/
abbrev hi (c : Fin 64) : Fin 128 := ⟨64 + c.val, by omega⟩

/-- The mean over a node and its neighbours, coordinate c: (s_c + x_c) / max(1, g + 1). -/
def hid (x s : Fin 64 → EReal) (g : EReal) (c : Fin 64) : EReal :=
  Ideal.div (s c + x c) (max one (g + one))

/-- The affine layer on the concatenation [x, h], coordinate o, written as the two half products plus the bias. -/
def pre (x s : Fin 64 → EReal) (g : EReal) (W : (⟨2, ![128, 64]⟩ : Shape).Idx → EReal) (b : Fin 64 → EReal) (o : Fin 64) : EReal :=
  ((∑ c : Fin 64, x c * W (ix2 (lo c) o)) + ∑ c : Fin 64, hid x s g c * W (ix2 (hi c) o)) + b o

/-- The rectified value. -/
def act (x s : Fin 64 → EReal) (g : EReal) (W : (⟨2, ![128, 64]⟩ : Shape).Idx → EReal) (b : Fin 64 → EReal) (o : Fin 64) : EReal :=
  max (pre x s g W b o) nought

/-- One node's result row: the rectified row divided by its Euclidean norm, the norm floored at `tiny`. -/
def rowOut (x s : Fin 64 → EReal) (g : EReal) (W : (⟨2, ![128, 64]⟩ : Shape).Idx → EReal) (b : Fin 64 → EReal) (o : Fin 64) : EReal :=
  Ideal.div (act x s g W b o) (max (Ideal.sqrt (∑ q : Fin 64, act x s g W b q * act x s g W b q)) tiny)

/-- The whole result array: node (i 0)'s result row at coordinate (i 1), its degree sum and neighbour sums taken over all 16384 columns. -/
def G (X : (⟨2, ![16384, 64]⟩ : Shape).Idx → EReal) (A : (⟨2, ![16384, 16384]⟩ : Shape).Idx → EReal)
    (W : (⟨2, ![128, 64]⟩ : Shape).Idx → EReal) (b : (⟨1, ![64]⟩ : Shape).Idx → EReal) :
    (⟨2, ![16384, 64]⟩ : Shape).Idx → EReal := fun i =>
  rowOut (fun c => X (ix2 (i 0) c)) (fun c => ∑ k : Fin 16384, A (ix2 (i 0) k) * X (ix2 k c))
    (∑ k : Fin 16384, A (ix2 (i 0) k)) W (fun o => b (ix1 o)) (i 1)

end Cert.Sage

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.PayAt.lean ====
/-
  The kernel body's stored values, read at an index, at the extended reals.

  One step of the body stores into two running blocks and, on the last step of a row of steps, into the result block:
    * the neighbour-sum block [1024, 64] and the degree column [1024, 1] are first set to 0 everywhere;
    * the neighbour-sum block then receives its old value plus the product of the adjacency tile [1024, 4096] with the
      feature tile [4096, 64]: at (p, c), old(p, c) + sum over k of a(p, k) * x(k, c);
    * the degree column receives its old value plus the row sums of the adjacency tile: at (p, 0), old(p, 0) + sum over k of a(p, k);
    * the result block is, row by row, the tail of the layer: from the node's own features x_p, its summed neighbour
      features s_p and its degree sum g_p,
        h(c)  = (s_p(c) + x_p(c)) / max(1, g_p + 1),
        z(o)  = (sum_c x_p(c) W(c, o) + sum_c h(c) W(64 + c, o)) + b(o),
        y(o)  = max(z(o), 0),
        out(o) = y(o) / max(sqrt(sum_q y(q)^2), tiny),
      which is the specification's `rowOut` on that row.
  Each statement reads one stored array at explicit coordinates (p, c); the layout operations (a cast to the same shape, a
  vector made a column, a column or a row repeated, the two halves cut out of the weight matrix) only rename the index, and
  the two non-pointwise operations are a plain matrix product into a zero accumulator and a sum along a row.
-/
import proofs.«154820_j78451872628893_2_alg».proof.Proof.Gen.KernelIdeal.Skeleton
import proofs.«154820_j78451872628893_2_alg».proof.Proof.Spec
import proofs.«154820_j78451872628893_2_alg».proof.Proof.LibPlainDot
import proofs.«154820_j78451872628893_2_alg».proof.Proof.LibColumn
import proofs.«154820_j78451872628893_2_alg».proof.Proof.LibRowReduce
import Idealize.ShloMosaic.Lib.ValueLayout

noncomputable section

namespace Cert.Sage.Pay

open Cert.KernelIdeal Cert.KernelIdeal.Gen Idealize.ShloMosaic Idealize.ShloMosaic.ValueIdx

/-! ## The non-pointwise operations, at explicit coordinates -/

/-- The tile product: a [1024, 4096] by [4096, 64] product into a zero accumulator, at (p, c). -/
theorem tileProduct_apply (l : FVec Ideal S1024x4096 .f32) (r : FVec Ideal S4096x64 .f32) (p : Fin 1024) (c : Fin 64) :
    matmul (F := Ideal) dot_S1024x4096_S4096x64_S1024x64_1_0_0_1_n_n (some .fp32) l r
        (constant (F := Ideal) S1024x64 .f32 0x00000000#32) (ix2 p c)
      = ∑ k : Fin 4096, l (ix2 p k) * r (ix2 k c) :=
  Cert.LibPlainDot.matmul_plain 1024 4096 64 (some .fp32) l r (ix2 p c)

/-- A [1024, 64] by [64, 64] product into a zero accumulator, at (p, o). -/
theorem rowProduct_apply (l : FVec Ideal S1024x64 .f32) (r : FVec Ideal S64x64 .f32) (p : Fin 1024) (o : Fin 64) :
    matmul (F := Ideal) dot_S1024x64_S64x64_S1024x64_1_0_0_1_n_n (some .fp32) l r
        (constant (F := Ideal) S1024x64 .f32 0x00000000#32) (ix2 p o)
      = ∑ c : Fin 64, l (ix2 p c) * r (ix2 c o) :=
  Cert.LibPlainDot.matmul_plain 1024 64 64 (some .fp32) l r (ix2 p o)

/-- The sums along the rows of a [1024, b] matrix, made a column: at (p, 0), the sum of row p. -/
theorem rowSumColumn_apply {b : ℕ} (src : FVec Ideal ⟨2, ![1024, b]⟩ .f32)
    (h : (⟨2, ![1024, b]⟩ : Shape).Reduces [1] S1024) (p : Fin 1024) (u : Fin 1) :
    shapeCast S1024x1 (multiReduction (F := Ideal) .add [1] S1024 src 0x00000000#32 h (.inl rfl) rfl)
        shapeCasts_S1024_S1024x1 (ix2 p u)
      = ∑ k : Fin b, src (ix2 p k) :=
  (Cert.LibColumn.shapeCast_a_a1_apply _ shapeCasts_S1024_S1024x1 p u).trans
    (Cert.LibRowReduce.rowSum_apply src 0x00000000#32 h (.inl rfl) rfl p)

/-! ## The two running blocks -/

/-- The neighbour-sum block starts at 0. -/
theorem pay1_apply (p : Fin 1024) (c : Fin 64) : k0_pay1 (F := Ideal) (ix2 p c) = 0 :=
  (congrFun (shapeCast_self (broadcast S1024x64 (Scalar.ofBits (F := Ideal) .f32 0x00000000#32))
    shapeCasts_S1024x64_S1024x64) (ix2 p c)).trans Ideal.ofBits_zero_f32

/-- The degree column starts at 0. -/
theorem pay2_apply (p : Fin 1024) (u : Fin 1) : k0_pay2 (F := Ideal) (ix2 p u) = 0 :=
  (congrFun (shapeCast_self (broadcast S1024x1 (Scalar.ofBits (F := Ideal) .f32 0x00000000#32))
    shapeCasts_S1024x1_S1024x1) (ix2 p u)).trans Ideal.ofBits_zero_f32

/-- One step adds the tile product to the neighbour-sum block. -/
theorem pay3_apply (v3 : Vec Ideal S1024x4096 .f32) (v7 : Vec Ideal S4096x64 .f32) (v8 : Vec Ideal S1024x64 .f32)
    (p : Fin 1024) (c : Fin 64) :
    k0_pay3 (F := Ideal) v3 v7 v8 (ix2 p c) = v8 (ix2 p c) + ∑ k : Fin 4096, v3 (ix2 p k) * v7 (ix2 k c) :=
  (congrFun (shapeCast_self
      (addf v8 (matmul (F := Ideal) dot_S1024x4096_S4096x64_S1024x64_1_0_0_1_n_n (some .fp32) v3 v7
        (constant (F := Ideal) S1024x64 .f32 0x00000000#32)))
      shapeCasts_S1024x64_S1024x64) (ix2 p c)).trans
    (congrArg (v8 (ix2 p c) + ·) (tileProduct_apply v3 v7 p c))

/-- One step adds the tile's row sums to the degree column. -/
theorem pay4_apply (v3 : Vec Ideal S1024x4096 .f32) (v14 : Vec Ideal S1024x1 .f32) (p : Fin 1024) (u : Fin 1) :
    k0_pay4 (F := Ideal) v3 v14 (ix2 p u) = v14 (ix2 p u) + ∑ k : Fin 4096, v3 (ix2 p k) :=
  (congrFun (shapeCast_self
      (addf v14 (shapeCast S1024x1
        (multiReduction (F := Ideal) .add [1] S1024 v3 0x00000000#32 reduces_S1024x4096_S1024 (.inl rfl) rfl)
        shapeCasts_S1024_S1024x1))
      shapeCasts_S1024x1_S1024x1) (ix2 p u)).trans
    (congrArg (v14 (ix2 p u) + ·) (rowSumColumn_apply v3 reduces_S1024x4096_S1024 p u))

/-! ## The result block, stage by stage

Each stage of the tail is named as an array over the loaded values and read at explicit coordinates; the stored value is
the last stage by unfolding. -/

section Tail
variable (v24 : FVec Ideal S1024x1 .f32) (v32 v33 : FVec Ideal S1024x64 .f32) (v37 : FVec Ideal S128x64 .f32)
  (v43 : FVec Ideal S1x64 .f32)

/-- The clamped degree column: max(1, g + 1). -/
def degCol : FVec Ideal S1024x1 .f32 :=
  maximumf (broadcast S1024x1 (Scalar.ofBits (F := Ideal) .f32 0x3F800000#32))
    (addf v24 (broadcast S1024x1 (Scalar.ofBits (F := Ideal) .f32 0x3F800000#32)))

/-- The clamped degree at (p, 0). -/
theorem degCol_apply (p : Fin 1024) (u : Fin 1) : degCol v24 (ix2 p u) = max one (v24 (ix2 p u) + one) := rfl

/-- A [1024, 64] array divided by a column repeated along the rows: at (p, c), the entry over the column's entry (p, 0). -/
theorem divColumn_apply (num : FVec Ideal S1024x64 .f32) (d : FVec Ideal S1024x1 .f32) (p : Fin 1024) (c : Fin 64) :
    divf num (broadcastTo S1024x64 d broadcasts_S1024x1_S1024x64) (ix2 p c)
      = Ideal.div (num (ix2 p c)) (d (ix2 p (0 : Fin 1))) :=
  congrArg (Ideal.div (num (ix2 p c))) (Cert.LibColumn.broadcastTo_a1_ab_apply d broadcasts_S1024x1_S1024x64 p c)

/-- The mean over a node and its neighbours, as an array. -/
def meanArr : FVec Ideal S1024x64 .f32 :=
  divf (addf v33 v32) (broadcastTo S1024x64 (degCol v24) broadcasts_S1024x1_S1024x64)

/-- The mean at (p, c) is the specification's `hid` on row p. -/
theorem meanArr_apply (p : Fin 1024) (c : Fin 64) :
    meanArr v24 v32 v33 (ix2 p c)
      = hid (fun c => v32 (ix2 p c)) (fun c => v33 (ix2 p c)) (v24 (ix2 p (0 : Fin 1))) c :=
  divColumn_apply (addf v33 v32) (degCol v24) p c

/-- The upper half of the weight matrix: entry (c, o) of the cut is entry (c, o) of the matrix. -/
theorem upperHalf_apply (c o : Fin 64) :
    extractStridedSlice S64x64 ![0, 0] v37 slices_S128x64_o0_0_S64x64 (ix2 c o) = v37 (ix2 (lo c) o) :=
  slice2_axis0_apply 0 v37 slices_S128x64_o0_0_S64x64 c o (lo c) (Nat.zero_add _).symm

/-- The lower half of the weight matrix: entry (c, o) of the cut is entry (64 + c, o) of the matrix. -/
theorem lowerHalf_apply (c o : Fin 64) :
    extractStridedSlice S64x64 ![64, 0] v37 slices_S128x64_o64_0_S64x64 (ix2 c o) = v37 (ix2 (hi c) o) :=
  slice2_axis0_apply 64 v37 slices_S128x64_o64_0_S64x64 c o (hi c) rfl

/-- The affine layer, as an array: the two half products plus the bias row repeated down the block. -/
def preArr : FVec Ideal S1024x64 .f32 :=
  addf
    (addf
      (matmul (F := Ideal) dot_S1024x64_S64x64_S1024x64_1_0_0_1_n_n (some .fp32) v32
        (extractStridedSlice S64x64 ![0, 0] v37 slices_S128x64_o0_0_S64x64)
        (constant (F := Ideal) S1024x64 .f32 0x00000000#32))
      (matmul (F := Ideal) dot_S1024x64_S64x64_S1024x64_1_0_0_1_n_n (some .fp32) (meanArr v24 v32 v33)
        (extractStridedSlice S64x64 ![64, 0] v37 slices_S128x64_o64_0_S64x64)
        (constant (F := Ideal) S1024x64 .f32 0x00000000#32)))
    (broadcastTo S1024x64 (shapeCast S1x64 v43 shapeCasts_S1x64_S1x64) broadcasts_S1x64_S1024x64)

/-- The affine value at (p, o) is the specification's `pre` on row p. -/
theorem preArr_apply (p : Fin 1024) (o : Fin 64) :
    preArr v24 v32 v33 v37 v43 (ix2 p o)
      = pre (fun c => v32 (ix2 p c)) (fun c => v33 (ix2 p c)) (v24 (ix2 p (0 : Fin 1))) v37
          (fun q => v43 (ix2 (0 : Fin 1) q)) o := by
  have e1 : matmul (F := Ideal) dot_S1024x64_S64x64_S1024x64_1_0_0_1_n_n (some .fp32) v32
        (extractStridedSlice S64x64 ![0, 0] v37 slices_S128x64_o0_0_S64x64)
        (constant (F := Ideal) S1024x64 .f32 0x00000000#32) (ix2 p o)
      = ∑ c : Fin 64, v32 (ix2 p c) * v37 (ix2 (lo c) o) :=
    (rowProduct_apply _ _ p o).trans
      (Finset.sum_congr rfl fun c _ => congrArg (v32 (ix2 p c) * ·) (upperHalf_apply v37 c o))
  have e2 : matmul (F := Ideal) dot_S1024x64_S64x64_S1024x64_1_0_0_1_n_n (some .fp32) (meanArr v24 v32 v33)
        (extractStridedSlice S64x64 ![64, 0] v37 slices_S128x64_o64_0_S64x64)
        (constant (F := Ideal) S1024x64 .f32 0x00000000#32) (ix2 p o)
      = ∑ c : Fin 64, hid (fun c => v32 (ix2 p c)) (fun c => v33 (ix2 p c)) (v24 (ix2 p (0 : Fin 1))) c
          * v37 (ix2 (hi c) o) :=
    (rowProduct_apply _ _ p o).trans
      (Finset.sum_congr rfl fun c _ =>
        congr (congrArg HMul.hMul (meanArr_apply v24 v32 v33 p c)) (lowerHalf_apply v37 c o))
  have e3 : broadcastTo S1024x64 (shapeCast S1x64 v43 shapeCasts_S1x64_S1x64) broadcasts_S1x64_S1024x64 (ix2 p o)
      = v43 (ix2 (0 : Fin 1) o) :=
    (broadcastTo_1b_ab_apply _ broadcasts_S1x64_S1024x64 p o).trans
      (congrFun (shapeCast_self v43 shapeCasts_S1x64_S1x64) (ix2 (0 : Fin 1) o))
  exact congr (congrArg HAdd.hAdd (congr (congrArg HAdd.hAdd e1) e2)) e3

/-- The rectified layer, as an array. -/
def actArr : FVec Ideal S1024x64 .f32 :=
  maximumf (preArr v24 v32 v33 v37 v43) (broadcast S1024x64 (Scalar.ofBits (F := Ideal) .f32 0x00000000#32))

/-- The rectified value at (p, o) is the specification's `act` on row p. -/
theorem actArr_apply (p : Fin 1024) (o : Fin 64) :
    actArr v24 v32 v33 v37 v43 (ix2 p o)
      = act (fun c => v32 (ix2 p c)) (fun c => v33 (ix2 p c)) (v24 (ix2 p (0 : Fin 1))) v37
          (fun q => v43 (ix2 (0 : Fin 1) q)) o :=
  congrArg (fun t => max t nought) (preArr_apply v24 v32 v33 v37 v43 p o)

/-- The floored norm column: max(sqrt(sum of the row's squares), tiny). -/
def normCol : FVec Ideal S1024x1 .f32 :=
  maximumf
    (sqrt (shapeCast S1024x1
      (multiReduction (F := Ideal) .add [1] S1024
        (mulf (actArr v24 v32 v33 v37 v43) (actArr v24 v32 v33 v37 v43)) 0x00000000#32 reduces_S1024x64_S1024 (.inl rfl) rfl)
      shapeCasts_S1024_S1024x1))
    (broadcast S1024x1 (Scalar.ofBits (F := Ideal) .f32 0x2B8CBCCC#32))

/-- The floored norm at (p, 0). -/
theorem normCol_apply (p : Fin 1024) (u : Fin 1) :
    normCol v24 v32 v33 v37 v43 (ix2 p u)
      = max (Ideal.sqrt (∑ q : Fin 64,
            act (fun c => v32 (ix2 p c)) (fun c => v33 (ix2 p c)) (v24 (ix2 p (0 : Fin 1))) v37
                (fun q => v43 (ix2 (0 : Fin 1) q)) q
              * act (fun c => v32 (ix2 p c)) (fun c => v33 (ix2 p c)) (v24 (ix2 p (0 : Fin 1))) v37
                (fun q => v43 (ix2 (0 : Fin 1) q)) q)) tiny :=
  congrArg (fun t => max (Ideal.sqrt t) tiny)
    ((rowSumColumn_apply (mulf (actArr v24 v32 v33 v37 v43) (actArr v24 v32 v33 v37 v43)) reduces_S1024x64_S1024 p u).trans
      (Finset.sum_congr rfl fun q _ =>
        congr (congrArg HMul.hMul (actArr_apply v24 v32 v33 v37 v43 p q)) (actArr_apply v24 v32 v33 v37 v43 p q)))

/-- The stored value is the rectified array over the floored norm column repeated along the rows. -/
theorem pay5_eq :
    k0_pay5 (F := Ideal) v24 v32 v33 v37 v43
      = divf (actArr v24 v32 v33 v37 v43)
          (broadcastTo S1024x64 (normCol v24 v32 v33 v37 v43) broadcasts_S1024x1_S1024x64) := rfl

/-- The stored value at (p, o), stage by stage. -/
theorem pay5_read (p : Fin 1024) (o : Fin 64) :
    k0_pay5 (F := Ideal) v24 v32 v33 v37 v43 (ix2 p o)
      = Cert.Sage.rowOut (fun c => v32 (ix2 p c)) (fun c => v33 (ix2 p c)) (v24 (ix2 p (0 : Fin 1))) v37
          (fun q => v43 (ix2 (0 : Fin 1) q)) o :=
  (congrFun (pay5_eq v24 v32 v33 v37 v43) (ix2 p o)).trans
    ((divColumn_apply _ _ p o).trans
      (congr (congrArg Ideal.div (actArr_apply v24 v32 v33 v37 v43 p o)) (normCol_apply v24 v32 v33 v37 v43 p 0)))

end Tail

/-- The result block at (p, o) is the specification's `rowOut` on row p. -/
theorem pay5_apply (v24 : Vec Ideal S1024x1 .f32) (v32 v33 : Vec Ideal S1024x64 .f32) (v37 : Vec Ideal S128x64 .f32)
    (v43 : Vec Ideal S1x64 .f32) (p : Fin 1024) (o : Fin 64) :
    k0_pay5 (F := Ideal) v24 v32 v33 v37 v43 (ix2 p o)
      = Cert.Sage.rowOut (fun c => v32 (ix2 p c)) (fun c => v33 (ix2 p c)) (v24 (ix2 p (0 : Fin 1))) v37
          (fun q => v43 (ix2 (0 : Fin 1) q)) o :=
  pay5_read v24 v32 v33 v37 v43 p o

end Cert.Sage.Pay

end
-- ==== Proof.Accum.lean ====
/-
  The two running blocks, point by point.

  Row block I of the grid is visited at the four consecutive points 4 I, …, 4 I + 3, one per column tile j. Writing, for a
  row r of the adjacency array and a column tile j,
      tileAcc r d j = sum over k < 4096 of A(r, 4096 j + k) * X(4096 j + k, d)      (the tile's share of the neighbour sums)
      tileDeg r j   = sum over k < 4096 of A(r, 4096 j + k)                          (the tile's share of the degree)
  the neighbour-sum block after point t holds, at (p, d), the sum of tileAcc (1024 (t / 4) + p) d j over the tiles
  j ≤ t % 4 visited so far, and the degree column the same sum of tileDeg: the first tile starts from the zero block, each
  later tile adds its share to what the point before left. Arrays are read at natural-number positions (zero outside the
  array) so that the tile arithmetic is plain arithmetic.
-/
import proofs.«154820_j78451872628893_2_alg».proof.Proof.Blocks
import proofs.«154820_j78451872628893_2_alg».proof.Proof.PayAt

noncomputable section

namespace Cert.Sage.Accum

open Cert.KernelIdeal Cert.KernelIdeal.Gen Idealize.ShloMosaic Idealize.ShloMosaic.TcCoe Idealize.SL.Sem
open Idealize.ShloMosaic.ValueIdx Cert.Sage.Pieces Cert.Sage.Blocks Cert.Sage.Pay

variable (m : (ℓ : Loc nD τ sig) → Buf (Elt Ideal) ℓ)

/-- The adjacency array at natural-number positions. -/
def natA (c : Dev nD) (r k : ℕ) : EReal :=
  if h : r < 16384 ∧ k < 16384 then adjArr m c (ix2 ⟨r, h.1⟩ ⟨k, h.2⟩) else 0
/-- The feature matrix at a natural-number row. -/
def natX (c : Dev nD) (k : ℕ) (d : Fin 64) : EReal :=
  if h : k < 16384 then featArr m c (ix2 ⟨k, h⟩ d) else 0

theorem natA_of_lt (c : Dev nD) {r k : ℕ} (hr : r < 16384) (hk : k < 16384) :
    natA m c r k = adjArr m c (ix2 ⟨r, hr⟩ ⟨k, hk⟩) := dif_pos ⟨hr, hk⟩
theorem natX_of_lt (c : Dev nD) {k : ℕ} (hk : k < 16384) (d : Fin 64) :
    natX m c k d = featArr m c (ix2 ⟨k, hk⟩ d) := dif_pos hk

/-- Column tile j's share of row r's neighbour sums, coordinate d. -/
def tileAcc (c : Dev nD) (r : ℕ) (d : Fin 64) (j : ℕ) : EReal :=
  ∑ k : Fin 4096, natA m c r (4096 * j + k.val) * natX m c (4096 * j + k.val) d
/-- Column tile j's share of row r's degree sum. -/
def tileDeg (c : Dev nD) (r : ℕ) (j : ℕ) : EReal :=
  ∑ k : Fin 4096, natA m c r (4096 * j + k.val)

/-- The neighbour sums over the first n column tiles. -/
def accUpTo (c : Dev nD) (r : ℕ) (d : Fin 64) (n : ℕ) : EReal := ∑ j ∈ Finset.range n, tileAcc m c r d j
/-- The degree sum over the first n column tiles. -/
def degUpTo (c : Dev nD) (r : ℕ) (n : ℕ) : EReal := ∑ j ∈ Finset.range n, tileDeg m c r j

/-! ## One point's step -/

/-- The stored neighbour-sum block at point t, entry (p, d): what it held plus tile (t % 4)'s share of row 1024 (t / 4) + p. -/
theorem step_acc (c : Dev nD) (t : Fin cfg0.N) (xs0 : Vec Ideal S1024x64 .f32) (p : Fin 1024) (d : Fin 64) :
    k0_pay3 (F := Ideal) (iblk m c 0 t) (tileRows (grid0.coords t) (iblk m c 1 t)) xs0 (ix2 p d)
      = xs0 (ix2 p d) + tileAcc m c (1024 * (t.val / 4) + p.val) d (t.val % 4) := by
  have hN : t.val < 64 := lt_of_lt_of_eq t.isLt N_0
  refine (pay3_apply (iblk m c 0 t) (tileRows (grid0.coords t) (iblk m c 1 t)) xs0 p d).trans ?_
  refine congrArg (xs0 (ix2 p d) + ·) (Finset.sum_congr rfl fun k _ => ?_)
  have hk4 : k.val < 4096 := k.isLt
  have hp : p.val < 1024 := p.isLt
  have hr : 1024 * (t.val / 4) + p.val < 16384 := by omega
  have hk : 4096 * (t.val % 4) + k.val < 16384 := by omega
  have hk' : 4096 * (grid0.coords t 1).val + k.val < 16384 := by rw [(crd t).2]; exact hk
  refine congrArg₂ (· * ·) ((adj_block m c t p k hr hk).trans (natA_of_lt m c hr hk).symm) ?_
  refine (tileRows_apply (grid0.coords t) (iblk m c 1 t) k d hk').trans ?_
  rw [feat_block m c t, natX_of_lt m c hk d]
  exact congrArg (fun q => featArr m c (ix2 q d)) (Fin.ext (by show 4096 * (grid0.coords t 1).val + k.val = _; rw [(crd t).2]))

/-- The stored degree column at point t, entry (p, 0): what it held plus tile (t % 4)'s share of row 1024 (t / 4) + p. -/
theorem step_deg (c : Dev nD) (t : Fin cfg0.N) (xs1 : Vec Ideal S1024x1 .f32) (p : Fin 1024) (u : Fin 1) :
    k0_pay4 (F := Ideal) (iblk m c 0 t) xs1 (ix2 p u)
      = xs1 (ix2 p u) + tileDeg m c (1024 * (t.val / 4) + p.val) (t.val % 4) := by
  have hN : t.val < 64 := lt_of_lt_of_eq t.isLt N_0
  refine (pay4_apply (iblk m c 0 t) xs1 p u).trans ?_
  refine congrArg (xs1 (ix2 p u) + ·) (Finset.sum_congr rfl fun k _ => ?_)
  have hk4 : k.val < 4096 := k.isLt
  have hp : p.val < 1024 := p.isLt
  have hr : 1024 * (t.val / 4) + p.val < 16384 := by omega
  have hk : 4096 * (t.val % 4) + k.val < 16384 := by omega
  exact (adj_block m c t p k hr hk).trans (natA_of_lt m c hr hk).symm

/-! ## The recurrences of the two running blocks -/

/-- At a first tile the neighbour-sum block is the zero block plus the tile's product. -/
theorem acc_first (c : Dev nD) (t : Fin cfg0.N) (h0 : t.val % 4 = 0) :
    (outsAt0 m c t.val t.isLt).2.1
      = k0_pay3 (F := Ideal) (iblk m c 0 t) (tileRows (grid0.coords t) (iblk m c 1 t)) (k0_pay1 (F := Ideal)) := by
  have h1 : ¬t.val % 4 = 3 := by omega
  rw [outsAt0_A m c t h0 h1]
  dsimp only
  exact first_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t)

/-- At a first tile the degree column is the zero column plus the tile's row sums. -/
theorem deg_first (c : Dev nD) (t : Fin cfg0.N) (h0 : t.val % 4 = 0) :
    (outsAt0 m c t.val t.isLt).2.2 = k0_pay4 (F := Ideal) (iblk m c 0 t) (k0_pay2 (F := Ideal)) := by
  have h1 : ¬t.val % 4 = 3 := by omega
  rw [outsAt0_A m c t h0 h1]
  dsimp only
  exact first_deg (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t)

/-- At a later tile the neighbour-sum block is what the point before left plus the tile's product. -/
theorem acc_next (c : Dev nD) (t : Fin cfg0.N) (h0 : ¬t.val % 4 = 0) :
    (outsAt0 m c t.val t.isLt).2.1
      = k0_pay3 (F := Ideal) (iblk m c 0 t) (tileRows (grid0.coords t) (iblk m c 1 t)) (outsAt0 m c (t.val - 1) (Nat.lt_of_le_of_lt (Nat.sub_le _ _) t.isLt)).2.1 := by
  by_cases h1 : t.val % 4 = 3
  · rw [outsAt0_C m c t h0 h1]
    dsimp only
    exact last_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact mid_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- At a later tile the degree column is what the point before left plus the tile's row sums. -/
theorem deg_next (c : Dev nD) (t : Fin cfg0.N) (h0 : ¬t.val % 4 = 0) :
    (outsAt0 m c t.val t.isLt).2.2 = k0_pay4 (F := Ideal) (iblk m c 0 t) (outsAt0 m c (t.val - 1) (Nat.lt_of_le_of_lt (Nat.sub_le _ _) t.isLt)).2.2 := by
  by_cases h1 : t.val % 4 = 3
  · rw [outsAt0_C m c t h0 h1]
    dsimp only
    exact last_deg (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact mid_deg (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! ## The invariant -/

/-- After point n: both running blocks hold the sums over the column tiles 0 … n % 4 of row block n / 4. -/
def Inv (c : Dev nD) (n : ℕ) (h : n < cfg0.N) : Prop :=
  (∀ (p : Fin 1024) (d : Fin 64), (outsAt0 m c n h).2.1 (ix2 p d) = accUpTo m c (1024 * (n / 4) + p.val) d (n % 4 + 1))
  ∧ (∀ (p : Fin 1024) (u : Fin 1), (outsAt0 m c n h).2.2 (ix2 p u) = degUpTo m c (1024 * (n / 4) + p.val) (n % 4 + 1))

theorem inv_first (c : Dev nD) (t : Fin cfg0.N) (h0 : t.val % 4 = 0) : Inv m c t.val t.isLt := by
  refine ⟨fun p d => ?_, fun p u => ?_⟩
  · refine (congrFun (acc_first m c t h0) (ix2 p d)).trans ((step_acc m c t _ p d).trans ?_)
    rw [pay1_apply, zero_add, h0]
    unfold accUpTo
    exact (Finset.sum_range_one _).symm
  · refine (congrFun (deg_first m c t h0) (ix2 p u)).trans ((step_deg m c t _ p u).trans ?_)
    rw [pay2_apply, zero_add, h0]
    unfold degUpTo
    exact (Finset.sum_range_one _).symm

theorem inv_next (c : Dev nD) (t : Fin cfg0.N) (h0 : ¬t.val % 4 = 0)
    (ih : Inv m c (t.val - 1) (Nat.lt_of_le_of_lt (Nat.sub_le _ _) t.isLt)) : Inv m c t.val t.isLt := by
  have e1 : (t.val - 1) / 4 = t.val / 4 := by omega
  have e2 : (t.val - 1) % 4 + 1 = t.val % 4 := by omega
  refine ⟨fun p d => ?_, fun p u => ?_⟩
  · refine (congrFun (acc_next m c t h0) (ix2 p d)).trans ((step_acc m c t _ p d).trans ?_)
    rw [ih.1 p d, e1, e2]
    unfold accUpTo
    exact (Finset.sum_range_succ _ _).symm
  · refine (congrFun (deg_next m c t h0) (ix2 p u)).trans ((step_deg m c t _ p u).trans ?_)
    rw [ih.2 p u, e1, e2]
    unfold degUpTo
    exact (Finset.sum_range_succ _ _).symm

/-- The invariant holds after every point, by induction along the grid. -/
theorem inv (c : Dev nD) : ∀ (n : ℕ) (h : n < cfg0.N), Inv m c n h
  | 0, h => inv_first m c ⟨0, h⟩ rfl
  | n + 1, h => by
    by_cases h0 : (n + 1) % 4 = 0
    · exact inv_first m c ⟨n + 1, h⟩ h0
    · exact inv_next m c ⟨n + 1, h⟩ h0 (inv c n (Nat.lt_of_succ_lt h))

end Cert.Sage.Accum

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.KernelValue.lean ====
/-
  The kernel's result array is the specification's function of the four argument arrays.

  At the last column tile of row block I (the points t with t % 4 = 3) the body finishes rows 1024 I … 1024 I + 1023: it feeds
  the two running blocks, now summed over all four column tiles — hence over all 16384 columns, a sum over 4 * 4096
  consecutive positions being the sum over 4 blocks of 4096 —, the block's own feature rows, the weights and the bias row to
  the per-row tail, and the pipeline writes that block back. The sixteen written blocks tile the [16384, 64] result, so the
  array ends holding the specification everywhere.
-/
import proofs.«154820_j78451872628893_2_alg».proof.Proof.Accum
import proofs.«154820_j78451872628893_2_alg».proof.Proof.LibTileSums
import proofs.«154820_j78451872628893_2_alg».proof.Proof.Gen.KernelIdeal.Value
import Idealize.ShloMosaic.Lib.ValueLayout
import Idealize.ShloMosaic.Lib.StableHlo.Run

noncomputable section

namespace Cert.Sage.Final

open Cert.KernelIdeal Cert.KernelIdeal.Gen Idealize.ShloMosaic Idealize.ShloMosaic.TcCoe Idealize.SL.Sem
open Idealize.ShloMosaic.Pipeline (Dat)
open Idealize.ShloMosaic.ValueIdx Cert.Sage.Pieces Cert.Sage.Blocks Cert.Sage.Pay Cert.Sage.Accum

variable (m : (ℓ : Loc nD τ sig) → Buf (Elt Ideal) ℓ) (ρ : Dev nD → PrngReg)

/-! ## The sums over all four column tiles are the sums over all 16384 columns -/

theorem accUpTo_four (c : Dev nD) (r : Fin 16384) (d : Fin 64) :
    accUpTo m c r.val d 4 = ∑ k : Fin 16384, adjArr m c (ix2 r k) * featArr m c (ix2 k d) := by
  unfold accUpTo tileAcc
  refine (Finset.sum_range _).trans
    ((Cert.LibTileSums.sum_blocks 4 4096 (fun i => natA m c r.val i * natX m c i d)).symm.trans ?_)
  show ∑ i : Fin 16384, natA m c r.val i.val * natX m c i.val d = _
  refine Finset.sum_congr rfl fun k _ => ?_
  rw [natA_of_lt m c r.isLt k.isLt, natX_of_lt m c k.isLt d]

theorem degUpTo_four (c : Dev nD) (r : Fin 16384) :
    degUpTo m c r.val 4 = ∑ k : Fin 16384, adjArr m c (ix2 r k) := by
  unfold degUpTo tileDeg
  refine (Finset.sum_range _).trans
    ((Cert.LibTileSums.sum_blocks 4 4096 (fun i => natA m c r.val i)).symm.trans ?_)
  show ∑ i : Fin 16384, natA m c r.val i.val = _
  refine Finset.sum_congr rfl fun k _ => ?_
  rw [natA_of_lt m c r.isLt k.isLt]

/-! ## The bias row the region finds is the bias vector -/

theorem biasRow_eq (c : Dev nD) :
    (biasRow m c : S1x64.Idx → EReal) = shapeCast S1x64 (m ((c : Thread nD τ).loc main_arg3)) shapeCasts_S64_S1x64 := by
  dsimp only [biasRow, Gen.V, Gen.hostOps0]
  after_results
  rfl

theorem biasRow_apply (c : Dev nD) (q : Fin 64) :
    biasRow m c (ix2 (0 : Fin 1) q) = m ((c : Thread nD τ).loc main_arg3) (ix1 q) := by
  rw [biasRow_eq]
  exact shapeCast_a_1a_apply _ shapeCasts_S64_S1x64 (0 : Fin 1) q

/-! ## The finished block -/

/-- At a last tile the stored block is the finishing computation over the two running blocks as the point leaves them. -/
theorem out_last (c : Dev nD) (t : Fin cfg0.N) (h1 : t.val % 4 = 3) :
    (outsAt0 m c t.val t.isLt).1
      = k0_pay5 (F := Ideal) (outsAt0 m c t.val t.isLt).2.2 (ownRows (grid0.coords t) ((hcond0_1 t).mpr h1) (iblk m c 1 t))
          (outsAt0 m c t.val t.isLt).2.1 (iblk m c 2 t) (iblk m c 3 t) := by
  have h0 : ¬t.val % 4 = 0 := by omega
  rw [outsAt0_C m c t h0 h1]
  dsimp only
  rw [last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    last_acc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    last_deg (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]

/-- Two applications of the per-row tail agree when their five arguments do. -/
theorem rowOut_congr {x x' s s' : Fin 64 → EReal} {g g' : EReal} {W W' : (⟨2, ![128, 64]⟩ : Shape).Idx → EReal}
    {b b' : Fin 64 → EReal} (hx : x = x') (hs : s = s') (hg : g = g') (hW : W = W') (hb : b = b') (o : Fin 64) :
    rowOut x s g W b o = rowOut x' s' g' W' b' o := by
  subst hx hs hg hW hb; rfl

/-- The four argument arrays at launch, as arrays of extended reals. -/
abbrev argX (c : Dev nD) : S16384x64.Idx → EReal := m ((c : Thread nD τ).loc main_arg0)
abbrev argA (c : Dev nD) : S16384x16384.Idx → EReal := m ((c : Thread nD τ).loc main_arg1)
abbrev argW (c : Dev nD) : S128x64.Idx → EReal := m ((c : Thread nD τ).loc main_arg2)
abbrev argB (c : Dev nD) : S64.Idx → EReal := m ((c : Thread nD τ).loc main_arg3)

/-- The result array the specification assigns to the launch memory. -/
def result (c : Dev nD) : Buf (Elt Ideal) ((c : Thread nD τ).loc main_v1) :=
  G (argX m c) (argA m c) (argW m c) (argB m c)

/-- Entry (p, o) of the block finished at point t is the specification at row 1024 (t / 4) + p. -/
theorem block_entry (c : Dev nD) (t : Fin cfg0.N) (h1 : t.val % 4 = 3) (p : Fin 1024) (o : Fin 64)
    (hr : 1024 * (t.val / 4) + p.val < 16384) :
    (outsAt0 m c t.val t.isLt).1 (ix2 p o) = result m c (ix2 ⟨1024 * (t.val / 4) + p.val, hr⟩ o) := by
  refine (congrFun (out_last m c t h1) (ix2 p o)).trans ((pay5_apply _ _ _ _ _ p o).trans ?_)
  have hr' : 1024 * (grid0.coords t 0).val + p.val < 16384 := by rw [(crd t).1]; exact hr
  have ex : (fun cc => ownRows (grid0.coords t) ((hcond0_1 t).mpr h1) (iblk m c 1 t) (ix2 p cc))
      = fun cc => argX m c (ix2 ⟨1024 * (t.val / 4) + p.val, hr⟩ cc) := funext fun cc => by
    rw [ownRows_apply (grid0.coords t) ((hcond0_1 t).mpr h1) (iblk m c 1 t) p cc hr', feat_block m c t]
    show V m c main_arg0 _ = _
    rw [V_main_arg0 m c]
    exact congrArg (fun q => argX m c (ix2 q cc))
      (Fin.ext (by show 1024 * (grid0.coords t 0).val + p.val = _; rw [(crd t).1]))
  have es : (fun cc => (outsAt0 m c t.val t.isLt).2.1 (ix2 p cc))
      = fun cc => ∑ k : Fin 16384, argA m c (ix2 ⟨1024 * (t.val / 4) + p.val, hr⟩ k) * argX m c (ix2 k cc) :=
    funext fun cc => by
    rw [(inv m c t.val t.isLt).1 p cc, h1]
    refine (accUpTo_four m c ⟨1024 * (t.val / 4) + p.val, hr⟩ cc).trans ?_
    refine Finset.sum_congr rfl fun k _ => ?_
    exact congrArg₂ (· * ·) (congrFun (V_main_arg1 m c) _) (congrFun (V_main_arg0 m c) _)
  have eg : (outsAt0 m c t.val t.isLt).2.2 (ix2 p (0 : Fin 1))
      = ∑ k : Fin 16384, argA m c (ix2 ⟨1024 * (t.val / 4) + p.val, hr⟩ k) := by
    rw [(inv m c t.val t.isLt).2 p 0, h1]
    refine (degUpTo_four m c ⟨1024 * (t.val / 4) + p.val, hr⟩).trans ?_
    exact Finset.sum_congr rfl fun k _ => congrFun (V_main_arg1 m c) _
  have ew : (iblk m c 2 t : Vec Ideal S128x64 .f32) = argW m c :=
    (w_block m c t).trans (V_main_arg2 m c)
  have eb : (fun q => (iblk m c 3 t : Vec Ideal S1x64 .f32) (ix2 (0 : Fin 1) q))
      = fun q => argB m c (ix1 q) := funext fun q => by
    rw [bias_block m c t]; exact biasRow_apply m c q
  exact rowOut_congr ex es eg ew eb o

/-! ## From the finished blocks to the array -/

/-- What a writing point writes back is its block of the specification's array. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : t.val < 64 := lt_of_lt_of_eq t.isLt N_0
  rw [Cert.KernelIdeal.Value.flushed4 m c t]
  funext j
  show (outsAt0 m c t.val t.isLt).1 j = result m c (((cfg0.win 4).blk t).view.emb j)
  obtain ⟨p, o, rfl⟩ : ∃ (p : Fin 1024) (o : Fin 64), j = ix2 p o := ⟨j 0, j 1, eq_ix2 j⟩
  have hp : p.val < 1024 := p.isLt
  have hr : 1024 * (t.val / 4) + p.val < 16384 := by omega
  have he : ((cfg0.win 4).blk t).view.emb (ix2 p o) = ix2 ⟨1024 * (t.val / 4) + p.val, hr⟩ o := by
    funext a
    apply Fin.ext
    match a with
    | ⟨0, _⟩ => show win0_4.index t 0 * 1024 + 1 * p.val = 1024 * (t.val / 4) + p.val; rw [(idxOut t).1]; omega
    | ⟨1, _⟩ => show win0_4.index t 1 * 64 + 1 * o.val = o.val; rw [(idxOut t).2]; omega
  rw [he]
  exact block_entry m c t h3 p o hr

/-- An index lies in point t's block iff each coordinate lies in the block's range on its axis. -/
theorem mem_blk (t : Fin cfg0.N) (i : S16384x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v1).slice (win0_4.rect t)).set ↔ _
  rw [View.set_slice_whole, Rect.mem_set_unit]
  exact Iff.rfl

/-- Row r of the result lies in the block written at the last tile of row block r / 1024. -/
theorem cover (i : S16384x64.Idx) :
    ∃ t : Fin cfg0.N, (cfg0.win 4).flush t = true ∧ i ∈ ((cfg0.win 4).blk t).view.set := by
  have h0 : (i 0).val < 16384 := (i 0).isLt
  have h1 : (i 1).val < 64 := (i 1).isLt
  have hN : cfg0.N = 64 := N_0
  have hb : 4 * ((i 0).val / 1024) + 3 < cfg0.N := by rw [hN]; omega
  refine ⟨⟨4 * ((i 0).val / 1024) + 3, hb⟩, (flush0_4 _).mpr (by show (4 * ((i 0).val / 1024) + 3) % 4 = 3; omega), ?_⟩
  rw [mem_blk]
  intro a
  match a with
  | ⟨0, _⟩ =>
    show win0_4.index ⟨4 * ((i 0).val / 1024) + 3, hb⟩ 0 * 1024 ≤ (i 0).val
      ∧ (i 0).val < win0_4.index ⟨4 * ((i 0).val / 1024) + 3, hb⟩ 0 * 1024 + 1024
    rw [(idxOut ⟨4 * ((i 0).val / 1024) + 3, hb⟩).1]
    show (4 * ((i 0).val / 1024) + 3) / 4 * 1024 ≤ (i 0).val ∧ (i 0).val < (4 * ((i 0).val / 1024) + 3) / 4 * 1024 + 1024
    omega
  | ⟨1, _⟩ =>
    show win0_4.index ⟨4 * ((i 0).val / 1024) + 3, hb⟩ 1 * 64 ≤ (i 1).val
      ∧ (i 1).val < win0_4.index ⟨4 * ((i 0).val / 1024) + 3, hb⟩ 1 * 64 + 64
    rw [(idxOut ⟨4 * ((i 0).val / 1024) + 3, hb⟩).2]
    omega

/-- The result array after the run is the specification's. -/
theorem final (c : Dev nD) : (dats m 0 c).arrAt 4 cfg0.N = result m c :=
  (dats m 0 c).arrAt_eq_of_cover 4 (result m c) (flushed_eq m c) cover

/-- The kernel's run: the result array at the specification of the launch arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Sage.Final

end
-- ==== Proof.RefIsSpec.lean ====
/-
  The reference program computes the specification's function G, index by index.

  Row by row: the degree column is max(1, (0 + sum_k A(p,k)) + 1); the aggregated row is (sum_k A(p,k) X(k,c) + X(p,c))
  divided by that degree; the 128-long contraction of the concatenation [X, h] with W splits at 64 into the two half
  products of the specification (the concatenation reads X on its first 64 columns and h on its last 64); the rectifier
  and the norm follow pointwise. The host's sums start from the zero word, which is the number 0; the other three words
  are the same patterns on both sides and are never evaluated.
-/
import proofs.«154820_j78451872628893_2_alg».proof.Proof.Gen.ReferenceIdeal.Read
import proofs.«154820_j78451872628893_2_alg».proof.Proof.Spec

noncomputable section

namespace Cert.Sage.Ref

open Cert.ReferenceIdeal Cert.ReferenceIdeal.Gen Cert.ReferenceIdeal.Read Idealize.ShloMosaic Idealize.ShloMosaic.ValueIdx

/-- Node p's own feature row. -/
abbrev xrow (X : (⟨2, ![16384, 64]⟩ : Shape).Idx → EReal) (p : Fin 16384) : Fin 64 → EReal := fun c => X (ix2 p c)
/-- Node p's neighbour sums: coordinate c is the sum over k of A(p,k) X(k,c). -/
abbrev srow (X : (⟨2, ![16384, 64]⟩ : Shape).Idx → EReal) (A : (⟨2, ![16384, 16384]⟩ : Shape).Idx → EReal) (p : Fin 16384) :
    Fin 64 → EReal := fun c => ∑ k : Fin 16384, A (ix2 p k) * X (ix2 k c)
/-- Node p's degree sum. -/
abbrev grow (A : (⟨2, ![16384, 16384]⟩ : Shape).Idx → EReal) (p : Fin 16384) : EReal := ∑ k : Fin 16384, A (ix2 p k)
/-- The bias as a function of the output coordinate. -/
abbrev brow (b : (⟨1, ![64]⟩ : Shape).Idx → EReal) : Fin 64 → EReal := fun o => b (ix1 o)

variable (X : (⟨S16384x64, .f32⟩ : BufTy).Contents (Elt Ideal)) (A : (⟨S16384x16384, .f32⟩ : BufTy).Contents (Elt Ideal))
  (W : (⟨S128x64, .f32⟩ : BufTy).Contents (Elt Ideal)) (b : (⟨S64, .f32⟩ : BufTy).Contents (Elt Ideal))

/-- The clipped degree column at row p: max(1, g_p + 1); the sum's initial zero drops. -/
theorem deg_apply (p : Fin 16384) :
    val_main_v4 (F := Ideal) A (ix2 p (0 : Fin 1)) = max one (grow A p + one) := by
  have e : ∀ k : Fin 16384, idx_main_v0 (idx_main_v1 (ix2 p (0 : Fin 1))) k = ix2 p k := fun k =>
    funext fun a => Fin.ext (by match a with | ⟨0, _⟩ => rfl | ⟨1, _⟩ => rfl)
  rw [val_main_v4_apply, val_main_call0_v1_apply, val_main_call0_v0_apply, val_main_cst_1_apply,
    val_main_v3_apply, val_main_v1_apply, val_main_v0_apply, val_main_cst_apply, val_main_v2_apply,
    val_main_cst_0_apply]
  simp only [Ideal.maximumf_def, Ideal.addf_def, Ideal.ofBits_def, Ideal.ofBits_zero_f32, zero_add, e]

/-- The aggregated row at (p, c): (s_p(c) + x_p(c)) / max(1, g_p + 1). -/
theorem hid_apply (p : Fin 16384) (c : Fin 64) :
    val_main_v8 (F := Ideal) X A (ix2 p c) = hid (xrow X p) (srow X A p) (grow A p) c := by
  have e7 : idx_main_v7 (ix2 p c) = ix2 p (0 : Fin 1) :=
    funext fun a => Fin.ext (by match a with | ⟨0, _⟩ => rfl | ⟨1, _⟩ => rfl)
  have el : ∀ k : Fin 16384, lidx_main_v5 (ix2 p c) k = ix2 p k := fun k =>
    funext fun a => Fin.ext (by match a with | ⟨0, _⟩ => rfl | ⟨1, _⟩ => rfl)
  have er : ∀ k : Fin 16384, ridx_main_v5 (ix2 p c) k = ix2 k c := fun k =>
    funext fun a => Fin.ext (by match a with | ⟨0, _⟩ => rfl | ⟨1, _⟩ => rfl)
  rw [val_main_v8_apply, val_main_v6_apply, val_main_v5_apply, val_main_v7_apply, e7, deg_apply]
  simp only [Ideal.hostDivf_def, Ideal.addf_def, el, er]
  rfl

/-- The concatenation [X, h] on its first 64 columns is X. -/
theorem cat_lo (p : Fin 16384) (c : Fin 64) :
    val_main_v9 (F := Ideal) X A (ix2 p (lo c)) = X (ix2 p c) := by
  unfold val_main_v9
  exact concatenate_pair_apply_left 1 X (val_main_v8 (F := Ideal) X A)
    concatenates_S16384x64_S16384x64_S16384x128_d1 (ix2 p (lo c)) rfl (ix2 p c)
    (fun b => by match b with | ⟨0, _⟩ => rfl | ⟨1, _⟩ => rfl)

/-- The concatenation [X, h] on its last 64 columns is h, the column 64 less. -/
theorem cat_hi (p : Fin 16384) (c : Fin 64) :
    val_main_v9 (F := Ideal) X A (ix2 p (hi c)) = val_main_v8 (F := Ideal) X A (ix2 p c) := by
  unfold val_main_v9
  exact concatenate_pair_apply_right 1 X (val_main_v8 (F := Ideal) X A)
    concatenates_S16384x64_S16384x64_S16384x128_d1 (ix2 p (hi c)) rfl rfl (ix2 p c)
    (fun b hb => by
      match b with
      | ⟨0, _⟩ => rfl
      | ⟨1, _⟩ => exact absurd rfl hb)
    (Nat.add_comm c.val 64)

/-- The affine layer at (p, o): the 128-long contraction split at 64 into the two half products, plus the bias. -/
theorem pre_apply (p : Fin 16384) (o : Fin 64) :
    val_main_v13 (F := Ideal) X A W b (ix2 p o) = pre (xrow X p) (srow X A p) (grow A p) W (brow b) o := by
  have el : ∀ k : Fin 128, lidx_main_v10 (ix2 p o) k = ix2 p k := fun k =>
    funext fun a => Fin.ext (by match a with | ⟨0, _⟩ => rfl | ⟨1, _⟩ => rfl)
  have er : ∀ k : Fin 128, ridx_main_v10 (ix2 p o) k = ix2 k o := fun k =>
    funext fun a => Fin.ext (by match a with | ⟨0, _⟩ => rfl | ⟨1, _⟩ => rfl)
  have eb : idx_main_v11 (idx_main_v12 (ix2 p o)) = ix1 o :=
    funext fun a => Fin.ext (by match a with | ⟨0, _⟩ => rfl)
  rw [val_main_v13_apply, val_main_v10_apply, val_main_v12_apply, val_main_v11_apply, eb]
  simp only [Ideal.addf_def, el, er]
  unfold pre
  refine congrArg (· + b (ix1 o)) ?_
  refine (Fin.sum_univ_add (a := 64) (b := 64)
    (fun k : Fin 128 => val_main_v9 (F := Ideal) X A (ix2 p k) * W (ix2 k o))).trans ?_
  refine congrArg₂ (· + ·) (Finset.sum_congr rfl fun c _ => ?_) (Finset.sum_congr rfl fun c _ => ?_)
  · exact congrArg (· * W (ix2 (lo c) o)) (cat_lo X A p c)
  · exact congrArg (· * W (ix2 (hi c) o)) ((cat_hi X A p c).trans (hid_apply X A p c))

/-- The rectified value at (p, o). -/
theorem act_apply (p : Fin 16384) (o : Fin 64) :
    val_main_v14 (F := Ideal) X A W b (ix2 p o) = act (xrow X p) (srow X A p) (grow A p) W (brow b) o := by
  rw [val_main_v14_apply, val_main_call1_v0_apply, val_main_call1_cst_apply, pre_apply]
  rfl

/-- The floored norm of row p, as broadcast to (p, o): max(sqrt(sum_q y_p(q)^2), tiny); the sum's initial zero drops. -/
theorem norm_apply (p : Fin 16384) (o : Fin 64) :
    val_main_v18 (F := Ideal) X A W b (ix2 p o) =
      max (Ideal.sqrt (∑ q : Fin 64, act (xrow X p) (srow X A p) (grow A p) W (brow b) q *
        act (xrow X p) (srow X A p) (grow A p) W (brow b) q)) tiny := by
  have e18 : idx_main_v18 (ix2 p o) = ix2 p (0 : Fin 1) :=
    funext fun a => Fin.ext (by match a with | ⟨0, _⟩ => rfl | ⟨1, _⟩ => rfl)
  have ek : ∀ k : Fin 64, idx_main_call2_v1 (idx_main_call2_v2 (ix2 p (0 : Fin 1))) k = ix2 p k := fun k =>
    funext fun a => Fin.ext (by match a with | ⟨0, _⟩ => rfl | ⟨1, _⟩ => rfl)
  rw [val_main_v18_apply, e18, val_main_v17_apply, val_main_v15_apply, val_main_call2_v2_apply,
    val_main_call2_v1_apply, val_main_call2_cst_apply, val_main_v16_apply, val_main_cst_2_apply]
  simp only [Ideal.ofBits_def, Ideal.ofBits_zero_f32, zero_add]
  simp only [ek, val_main_call2_v0_apply, act_apply, Ideal.maximumf_def, Ideal.hostUnary_sqrt_def, Ideal.mulf_def]

/-- The reference's result array is G of its four arguments. -/
theorem ref_is_spec :
    Cert.ReferenceIdeal.Read.val_main_v19 (F := Ideal) X A W b = Cert.Sage.G X A W b := by
  funext i
  obtain ⟨p, o, rfl⟩ : ∃ (p : Fin 16384) (o : Fin 64), i = ix2 p o := ⟨i 0, i 1, eq_ix2 i⟩
  rw [val_main_v19_apply, act_apply, norm_apply]
  rfl

end Cert.Sage.Ref

end
-- ==== Proof.lean ====
/-
  The certificate of a GraphSAGE mean-aggregation layer: a Pallas kernel against its jnp reference.

  Both programs take node features X [16384, 64], an adjacency array A [16384, 16384], weights W [128, 64] and a bias b [64],
  and return, for every node r,
      out_r = y_r / max(norm(y_r), 1e-12),   y_r = max([x_r, h_r] W + b, 0),   h_r = (sum_k A(r,k) x_k + x_r) / max(1, sum_k A(r,k) + 1).
  The reference computes this with whole-array operations. The kernel walks a 16 x 4 grid: for each block of 1024 rows it
  accumulates the neighbour sums and the degree sums over four column tiles of 4096 in two running blocks, and at the last
  tile finishes the rows, multiplying by the two halves of W separately instead of concatenating.
  Over the extended reals the two agree exactly: a sum over 16384 columns is the sum over 4 tiles of 4096 (addition there is
  commutative and associative, infinities included), the 128-long contraction of the concatenation is the sum of its two
  64-long halves, an accumulator started at 0 adds nothing, and every other operation is the same operation on both sides
  with the same constants. No finiteness of the inputs is used.
  The three frames come from the generated frame proofs and the reference's generated run; the idealization rewrote
  nothing, so the kernel's idealization is its own text read over the extended reals.
-/
import proofs.«154820_j78451872628893_2_alg».proof.Defs
import proofs.«154820_j78451872628893_2_alg».proof.Proof.Gen.Kernel
import proofs.«154820_j78451872628893_2_alg».proof.Proof.Gen.Kernel.Skeleton
import proofs.«154820_j78451872628893_2_alg».proof.Proof.Gen.Kernel.Launch
import proofs.«154820_j78451872628893_2_alg».proof.Proof.Gen.Kernel.Points
import proofs.«154820_j78451872628893_2_alg».proof.Proof.Gen.Kernel.Frame
import proofs.«154820_j78451872628893_2_alg».proof.Proof.Gen.KernelIdeal
import proofs.«154820_j78451872628893_2_alg».proof.Proof.Gen.KernelIdeal.Skeleton
import proofs.«154820_j78451872628893_2_alg».proof.Proof.Gen.KernelIdeal.Launch
import proofs.«154820_j78451872628893_2_alg».proof.Proof.Gen.KernelIdeal.Points
import proofs.«154820_j78451872628893_2_alg».proof.Proof.Gen.KernelIdeal.Frame
import proofs.«154820_j78451872628893_2_alg».proof.Proof.Gen.ReferenceIdeal
import proofs.«154820_j78451872628893_2_alg».proof.Proof.Gen.Pre_finite_inputs
import proofs.«154820_j78451872628893_2_alg».proof.Proof.Gen.KernelIdeal.Value
import proofs.«154820_j78451872628893_2_alg».proof.Proof.Gen.ReferenceIdeal.Run
import proofs.«154820_j78451872628893_2_alg».proof.Proof.Gen.ReferenceIdeal.Read
import proofs.«154820_j78451872628893_2_alg».proof.Proof.KernelValue
import proofs.«154820_j78451872628893_2_alg».proof.Proof.RefIsSpec
import Idealize.ShloMosaic.Adequacy
import Idealize.ShloMosaic.Init

noncomputable section

namespace Cert.Proof

open Idealize.ShloMosaic Idealize.SL.Sem

/-- The kernel as printed runs and leaves its arguments as they were. -/
theorem frame_kernel : @Cert.frame_Kernel Cert.Kernel.Gen.facts Cert.Pre_finite_inputs.Gen.facts :=
  fun m ρ _ => Cert.Kernel.Gen.frame m ρ

/-- So does its reading over the extended reals. -/
theorem frame_kernelIdeal : @Cert.frame_KernelIdeal Cert.KernelIdeal.Gen.facts Cert.Pre_finite_inputs.Gen.facts :=
  fun m ρ _ => Cert.KernelIdeal.Gen.frame m ρ

/-- The reference runs and leaves its arguments as they were: its run, the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at the specification's function of their arguments, and the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Sage.Final.result m c, Cert.Sage.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _ _ _).trans ?_
  rw [Cert.Sage.Ref.ref_is_spec, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
